-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S1x1x1024x64 : Shape := ⟨4, ![1, 1, 1024, 64]⟩
abbrev S1x1x2048x64 : Shape := ⟨4, ![1, 1, 2048, 64]⟩
abbrev S1x1x1024x2048 : Shape := ⟨4, ![1, 1, 1024, 2048]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x64, .f32⟩
  | .hbm, ⟨5, _⟩ => ⟨S2x16x2048x2048, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1024x2048, .i32⟩
  | .local _ .vmem, ⟨7, _⟩ => ⟨S1x1x1024x2048, .i32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x2048, .f32⟩
  | .local _ .vmem, ⟨11, _⟩ => ⟨S1x1x1024x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x2048_S1x1x1024x2048 : S1024x2048.ShapeCasts S1x1x1024x2048
  shapeCasts_S1024x64_S1x1x1024x64 : S1024x64.ShapeCasts S1x1x1024x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S2x16x2048x64.size a
  hwx0_0 : ∀ i : grid0.Coords, EltTy.bits .f32 = 32 ∨ (Rect.block (s := S2x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x2048.size a ≤ S2x1x2048x2048.size a
  hwx0_3 : ∀ i : grid0.Coords, EltTy.bits .i32 = 32 ∨ (Rect.block (s := S2x1x2048x2048) S1x1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S2x16x2048x64.size a
  hwx0_4 : ∀ i : grid0.Coords, EltTy.bits .f32 = 32 ∨ (Rect.block (s := S2x16x2048x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x2048.size a ≤ S2x16x2048x2048.size a
  hwx0_5 : ∀ i : grid0.Coords, EltTy.bits .f32 = 32 ∨ (Rect.block (s := S2x16x2048x2048) S1x1x1024x2048.size (cc0_transform_5 i) (hinb0_5 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .i32⟩
  | .hbm, ⟨9, _⟩ => ⟨S2x1x2048x2048, .i32⟩
  | .hbm, ⟨10, _⟩ => ⟨S2x1x2048x2048, .i1⟩
  | .hbm, ⟨11, _⟩ => ⟨S_, .f32⟩
  | .hbm, ⟨12, _⟩ => ⟨S2x16x2048x2048, .i1⟩
  | .hbm, ⟨13, _⟩ => ⟨S2x16x2048x2048, .f32⟩
  | .hbm, ⟨14, _⟩ => ⟨S2x16x2048x2048, .f32⟩
  | .hbm, ⟨15, _⟩ => ⟨S_, .f32⟩
  | .hbm, ⟨16, _⟩ => ⟨S2x16x2048, .f32⟩
  | .hbm, ⟨17, _⟩ => ⟨S_, .f32⟩
  | .hbm, ⟨18, _⟩ => ⟨S2x16x2048, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Scaled dot-product attention with a mask, as one function of the four argument arrays.

  For a batch b, a head h and a query row r, the score against key row k is the inner product of the query row with
  the key row over the 64 features, times the scale; where the mask at (b, r, k) is positive the score is replaced by
  the fill value. The row of 2048 scores is turned into weights by the softmax taken the stable way: the row's maximum
  (a fold of max from minus infinity) is subtracted, the exponential is taken, and each exponential is divided by the
  sum of the row's exponentials. The output row is the weighted sum of the value rows.

  The scale, the fill value and minus infinity are kept as the words both programs write for them; nothing here
  depends on what they denote.
-/
import Idealize.ShloMosaic.PureOps.Ideal.Laws
import Idealize.ShloMosaic.Lib.ValueIdx

noncomputable section

open scoped BigOperators

namespace Cert.Attn

open Idealize.ShloMosaic Idealize.ShloMosaic.ValueIdx

/-- Minus infinity, the start of a row's maximum. -/
abbrev negInf : EReal := Ideal.ofBits .f32 0xFF800000#32
/-- The value a masked score is replaced by. -/
abbrev fill : EReal := Ideal.ofBits .f32 0xCE6E6B28#32
/-- The factor on every inner product. -/
abbrev scale : EReal := Ideal.ofBits .f32 0x3E000000#32

variable {n D : ℕ}

/-- A row's maximum: the fold of max over the row from minus infinity, and once more against minus infinity. -/
def rowMax (s : Fin n → EReal) : EReal := max negInf ((Finset.univ : Finset (Fin n)).fold max negInf s)

/-- The exponential of a score less its row's maximum. -/
def rowExp (s : Fin n → EReal) (k : Fin n) : EReal := Ideal.exp (s k - rowMax s)

/-- The softmax of a row: each exponential over the sum of the row's exponentials. -/
def rowSoftmax (s : Fin n → EReal) (k : Fin n) : EReal := Ideal.div (rowExp s k) (∑ k' : Fin n, rowExp s k')

/-- The masked score of one query row q against key row k: the scaled inner product, or the fill value where the
    mask word is positive. -/
def maskedScore (q : Fin D → EReal) (kk : Fin n → Fin D → EReal) (msk : Fin n → BitVec 32) (k : Fin n) : EReal :=
  Scalar.select (IntOp.cmpi .sgt (msk k) 0#32) fill ((∑ d : Fin D, q d * kk k d) * scale)

/-- The attention weights of one query row. -/
def attnRow (q : Fin D → EReal) (kk : Fin n → Fin D → EReal) (msk : Fin n → BitVec 32) : Fin n → EReal :=
  rowSoftmax (maskedScore q kk msk)

/-- The weighted sum of the value rows, at feature d. -/
def outRow (p : Fin n → EReal) (vv : Fin n → Fin D → EReal) (d : Fin D) : EReal := ∑ k : Fin n, p k * vv k d

/-! ## Over the arrays -/

abbrev SQ : Shape := ⟨4, ![2, 16, 2048, 64]⟩
abbrev SM : Shape := ⟨4, ![2, 1, 2048, 2048]⟩
abbrev SP : Shape := ⟨4, ![2, 16, 2048, 2048]⟩

/-- The weights of query row (b, h, r), from the query, key and mask arrays. -/
def weights (Q K : SQ.Idx → EReal) (M : SM.Idx → BitVec 32) (b : Fin 2) (h : Fin 16) (r : Fin 2048) : Fin 2048 → EReal :=
  attnRow (fun d : Fin 64 => Q (ix4 b h r d)) (fun (k : Fin 2048) (d : Fin 64) => K (ix4 b h k d)) (fun k : Fin 2048 => M (ix4 b (0 : Fin 1) r k))

/-- The attention matrix: entry (b, h, r, k) is weight k of query row (b, h, r). -/
def probs (Q K : SQ.Idx → EReal) (M : SM.Idx → BitVec 32) : SP.Idx → EReal :=
  fun i => weights Q K M (i 0) (i 1) (i 2) (i 3)

/-- The attention output: entry (b, h, r, d) is the weighted sum of the value rows of (b, h) at feature d. -/
def outs (Q K V : SQ.Idx → EReal) (M : SM.Idx → BitVec 32) : SQ.Idx → EReal :=
  fun j => outRow (weights Q K M (j 0) (j 1) (j 2)) (fun (k : Fin 2048) (d : Fin 64) => V (ix4 (j 0) (j 1) k d)) (j 3)

theorem probs_ix (Q K : SQ.Idx → EReal) (M : SM.Idx → BitVec 32) (b : Fin 2) (h : Fin 16) (r k : Fin 2048) :
    probs Q K M (ix4 b h r k) = weights Q K M b h r k := rfl

theorem outs_ix (Q K V : SQ.Idx → EReal) (M : SM.Idx → BitVec 32) (b : Fin 2) (h : Fin 16) (r : Fin 2048) (d : Fin 64) :
    outs Q K V M (ix4 b h r d) = outRow (weights Q K M b h r) (fun (k : Fin 2048) (d : Fin 64) => V (ix4 b h k d)) d := rfl

end Cert.Attn

end
-- ==== Proof.RefAttn.lean ====
/-
  The reference program read as the specification. Its attention matrix (the division of the exponentials by their row
  sums) is the specification's matrix of weights, and its output (the product of that matrix with the value rows) is the
  specification's output: entry by entry, each host operation is read at an index built from its four coordinates, and the
  chain of readings is the specification's chain score, row maximum, exponential, row sum, quotient, weighted sum.
-/
import proofs.«102311_j68607807586645_1_alg».proof.Proof.Gen.ReferenceIdeal.Read
import proofs.«102311_j68607807586645_1_alg».proof.Proof.AttnSpec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-! ## The index maps of the layout operations, at an index given by its coordinates -/

/-- The mask is read at head 0: it is broadcast over the heads. -/
theorem idx_mask (b : Fin 2) (h : Fin 16) (r k : Fin 2048) :
    idx_main_call0_v0 (ix4 b h r k) = ix4 b (0 : Fin 1) r k := by
  funext a; match a with | ⟨0, _⟩ => rfl | ⟨1, _⟩ => rfl | ⟨2, _⟩ => rfl | ⟨3, _⟩ => rfl

/-- The first product reads the query at row r, feature d. -/
theorem lidx_score (b : Fin 2) (h : Fin 16) (r k : Fin 2048) (d : Fin 64) :
    lidx_main_v0 (ix4 b h r k) d = ix4 b h r d := by
  funext a; match a with | ⟨0, _⟩ => rfl | ⟨1, _⟩ => rfl | ⟨2, _⟩ => rfl | ⟨3, _⟩ => rfl

/-- The first product reads the key at row k, feature d. -/
theorem ridx_score (b : Fin 2) (h : Fin 16) (r k : Fin 2048) (d : Fin 64) :
    ridx_main_v0 (ix4 b h r k) d = ix4 b h k d := by
  funext a; match a with | ⟨0, _⟩ => rfl | ⟨1, _⟩ => rfl | ⟨2, _⟩ => rfl | ⟨3, _⟩ => rfl

/-- A per-row value broadcast back over the row is read at the row. -/
theorem idx_row_max (b : Fin 2) (h : Fin 16) (r k : Fin 2048) :
    idx_main_v9 (idx_main_v10 (ix4 b h r k)) = ix3 b h r := by
  funext a; match a with | ⟨0, _⟩ => rfl | ⟨1, _⟩ => rfl | ⟨2, _⟩ => rfl

/-- Likewise the row sum broadcast back over the row. -/
theorem idx_row_sum (b : Fin 2) (h : Fin 16) (r k : Fin 2048) :
    idx_main_v14 (idx_main_v15 (ix4 b h r k)) = ix3 b h r := by
  funext a; match a with | ⟨0, _⟩ => rfl | ⟨1, _⟩ => rfl | ⟨2, _⟩ => rfl

/-- The row sum runs over the last coordinate. -/
theorem idx_sum (b : Fin 2) (h : Fin 16) (r k : Fin 2048) :
    idx_main_v13 (ix3 b h r) k = ix4 b h r k := by
  funext a; match a with | ⟨0, _⟩ => rfl | ⟨1, _⟩ => rfl | ⟨2, _⟩ => rfl | ⟨3, _⟩ => rfl

/-- The second product reads the weights at row r, column k. -/
theorem lidx_out (b : Fin 2) (h : Fin 16) (r k : Fin 2048) (d : Fin 64) :
    lidx_main_v17 (ix4 b h r d) k = ix4 b h r k := by
  funext a; match a with | ⟨0, _⟩ => rfl | ⟨1, _⟩ => rfl | ⟨2, _⟩ => rfl | ⟨3, _⟩ => rfl

/-- The second product reads the value at row k, feature d. -/
theorem ridx_out (b : Fin 2) (h : Fin 16) (r k : Fin 2048) (d : Fin 64) :
    ridx_main_v17 (ix4 b h r d) k = ix4 b h k d := by
  funext a; match a with | ⟨0, _⟩ => rfl | ⟨1, _⟩ => rfl | ⟨2, _⟩ => rfl | ⟨3, _⟩ => rfl

/-- The index over (b, h, r) with k inserted on the reduced axis is (b, h, r, k). -/
theorem lift_row (hR : S2x16x2048x2048.Reduces [3] S2x16x2048) (b : Fin 2) (h : Fin 16) (r k : Fin 2048) :
    hR.lift (ix3 b h r) k = ix4 b h r k :=
  funext fun a => Fin.ext (by match a with | ⟨0, _⟩ => rfl | ⟨1, _⟩ => rfl | ⟨2, _⟩ => rfl | ⟨3, _⟩ => rfl)

/-! ## The stages -/

section
variable (x0 x1 : (⟨S2x16x2048x64, .f32⟩ : BufTy).Contents (Elt Ideal))
  (x3 : (⟨S2x1x2048x2048, .i32⟩ : BufTy).Contents (Elt Ideal))

/-- The row of masked scores of query row (b, h, r), as the specification writes it. -/
abbrev scoreRow (b : Fin 2) (h : Fin 16) (r : Fin 2048) : Fin 2048 → EReal :=
  maskedScore (fun d : Fin 64 => x0 (ix4 b h r d)) (fun (k : Fin 2048) (d : Fin 64) => x1 (ix4 b h k d))
    (fun k : Fin 2048 => x3 (ix4 b (0 : Fin 1) r k))

/-- Score: the scaled inner product of query row r with key row k, replaced by the fill value where the mask is positive. -/
theorem score_ix (b : Fin 2) (h : Fin 16) (r k : Fin 2048) :
    val_main_v5 (F := Ideal) x0 x1 x3 (ix4 b h r k) = scoreRow x0 x1 x3 b h r k := by
  rw [val_main_v5_apply, val_main_call0_v0_apply, val_main_v4_apply, val_main_v3_apply, val_main_c_apply,
    val_main_call0_v1_apply, val_main_cst_0_apply, val_main_v2_apply, val_main_v0_apply, val_main_v1_apply,
    val_main_cst_apply, idx_mask, Ideal.mulf_def, Ideal.ofBits_def, Ideal.ofBits_def]
  simp only [lidx_score, ridx_score]
  rfl

/-- The fold of max over a row of scores from minus infinity. -/
theorem fold_ix (b : Fin 2) (h : Fin 16) (r : Fin 2048) :
    val_main_v6 (F := Ideal) x0 x1 x3 (ix3 b h r)
      = (Finset.univ : Finset (Fin 2048)).fold max negInf (scoreRow x0 x1 x3 b h r) := by
  have hR : S2x16x2048x2048.Reduces [3] S2x16x2048 := by decide
  unfold val_main_v6
  refine (Host.reduce_eq_fold_single FloatOps.maximumf _ _ reducesTo_S2x16x2048x2048_S2x16x2048_d3 hR h_S_
    (ix3 b h r)).trans ?_
  show (Finset.univ : Finset (Fin 2048)).fold max negInf
    (fun k : Fin 2048 => val_main_v5 (F := Ideal) x0 x1 x3 (hR.lift (ix3 b h r) k)) = _
  refine Finset.fold_congr fun k _ => ?_
  rw [lift_row]
  exact score_ix x0 x1 x3 b h r k

/-- Row maximum. -/
theorem max_ix (b : Fin 2) (h : Fin 16) (r : Fin 2048) :
    val_main_v8 (F := Ideal) x0 x1 x3 (ix3 b h r) = rowMax (scoreRow x0 x1 x3 b h r) := by
  rw [val_main_v8_apply, val_main_v7_apply, val_main_cst_2_apply, fold_ix, Ideal.maximumf_def, Ideal.ofBits_def]
  rfl

/-- Exponential of a score less its row's maximum. -/
theorem exp_ix (b : Fin 2) (h : Fin 16) (r k : Fin 2048) :
    val_main_v12 (F := Ideal) x0 x1 x3 (ix4 b h r k) = rowExp (scoreRow x0 x1 x3 b h r) k := by
  rw [val_main_v12_apply, val_main_v11_apply, val_main_v10_apply, val_main_v9_apply, idx_row_max, max_ix, score_ix,
    Ideal.hostUnary_exp_def, Ideal.subf_def]
  rfl

/-- Row sum of the exponentials. -/
theorem sum_ix (b : Fin 2) (h : Fin 16) (r : Fin 2048) :
    val_main_v13 (F := Ideal) x0 x1 x3 (ix3 b h r) = ∑ k : Fin 2048, rowExp (scoreRow x0 x1 x3 b h r) k := by
  rw [val_main_v13_apply, val_main_cst_3_apply, Ideal.ofBits_def, Ideal.ofBits_zero_f32, zero_add]
  refine Finset.sum_congr rfl fun k _ => ?_
  rw [idx_sum, exp_ix]

/-- Weight: the exponential over the row sum. -/
theorem weight_ix (b : Fin 2) (h : Fin 16) (r k : Fin 2048) :
    val_main_v16 (F := Ideal) x0 x1 x3 (ix4 b h r k) = weights x0 x1 x3 b h r k := by
  rw [val_main_v16_apply, val_main_v15_apply, val_main_v14_apply, idx_row_sum, sum_ix, exp_ix, Ideal.hostDivf_def]
  rfl

end

/-! ## The two results -/

/-- The reference's attention matrix is the specification's. -/
theorem probs_eq (x0 x1 : (⟨S2x16x2048x64, .f32⟩ : BufTy).Contents (Elt Ideal)) (x3 : (⟨S2x1x2048x2048, .i32⟩ : BufTy).Contents (Elt Ideal)) :
    Cert.ReferenceIdeal.Read.val_main_v16 (F := Ideal) x0 x1 x3 = Cert.Attn.probs x0 x1 x3 := by
  funext i
  obtain ⟨b, h, r, k, rfl⟩ : ∃ (b : Fin 2) (h : Fin 16) (r k : Fin 2048), i = ix4 b h r k :=
    ⟨i 0, i 1, i 2, i 3, eq_ix4 i⟩
  exact (weight_ix x0 x1 x3 b h r k).trans (probs_ix x0 x1 x3 b h r k).symm

/-- The reference's output is the specification's: the weighted sum of the value rows. -/
theorem outs_eq (x0 x1 x2 : (⟨S2x16x2048x64, .f32⟩ : BufTy).Contents (Elt Ideal)) (x3 : (⟨S2x1x2048x2048, .i32⟩ : BufTy).Contents (Elt Ideal)) :
    Cert.ReferenceIdeal.Read.val_main_v17 (F := Ideal) x0 x1 x2 x3 = Cert.Attn.outs x0 x1 x2 x3 := by
  funext j
  obtain ⟨b, h, r, d, rfl⟩ : ∃ (b : Fin 2) (h : Fin 16) (r : Fin 2048) (d : Fin 64), j = ix4 b h r d :=
    ⟨j 0, j 1, j 2, j 3, eq_ix4 j⟩
  rw [val_main_v17_apply, outs_ix]
  unfold outRow
  refine Finset.sum_congr rfl fun k _ => ?_
  rw [lidx_out, ridx_out, weight_ix]

end Cert.ReferenceIdeal.RefValue

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.LibUnitCasts.lean ====
/-
  Blocks with two leading unit axes: two shape casts read at an index, for any extents.

  A pipelined block of a rank-4 array cut one row-block of one head at a time has shape [1, 1, a, b]; a body views it as
  the matrix [a, b] and stores a matrix back as such a block. Both casts keep the row-major position, and the two unit
  coordinates contribute nothing to it, so each is read here at an index built from its coordinates.
-/
import Idealize.ShloMosaic.Lib.ValueIdx
import Idealize.ShloMosaic.Lib.Pipeline.Value

namespace Cert.LibUnitCasts

open Idealize.ShloMosaic Idealize.ShloMosaic.ValueIdx

variable {α : Type}

/-- A block [1, 1, a, b] viewed as the matrix [a, b] reads, at (i, j), the block at (0, 0, i, j). -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] stored as a block [1, 1, a, b] reads, at (u, v, i, j), the matrix at (i, j). -/
theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

end Cert.LibUnitCasts
-- ==== Proof.KernelPay.lean ====
/-
  What one grid point of the attention kernel computes, read at an index.

  At a grid point the body holds a block of 1024 query rows, the 2048 key rows and the 2048 value rows of one head, and
  the mask rows of the query block. It forms the 1024 by 2048 matrix of scaled inner products (a matrix product of the
  query block with the transposed key block), replaces the masked entries by the fill value, takes the softmax of every
  row (row maximum from minus infinity, subtract, exponential, divide by the row's sum), and multiplies the weights
  with the value block. Read at an entry, the weights are the specification's softmax of the row's masked scores, and
  the output is the weighted sum of the value rows.

  The roundings to sixteen bits on the way into the two matrix products are the identity on extended reals.
-/
import proofs.«102311_j68607807586645_1_alg».proof.Proof.Gen.KernelIdeal.Skeleton
import proofs.«102311_j68607807586645_1_alg».proof.Proof.AttnSpec
import proofs.«102311_j68607807586645_1_alg».proof.Proof.LibPlainDot
import proofs.«102311_j68607807586645_1_alg».proof.Proof.LibColumns
import proofs.«102311_j68607807586645_1_alg».proof.Proof.LibUnitCasts
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.TcCoe Idealize.ShloMosaic.ValueIdx Cert.Attn Cert.LibUnitCasts

/-! ## The softmax of the rows of a 1024 by 2048 matrix, as the body computes it -/

/-- The row maxima: the reduction of max over the columns from minus infinity, and max with minus infinity once more. -/
def kMax (X : FVec Ideal S1024x2048 .f32) : FVec Ideal S1024 .f32 :=
  maximumf (broadcast S1024 (Scalar.ofBits .f32 0xFF800000#32))
    (multiReduction .maximumf [1] S1024 X 0xFF800000#32 reduces_S1024x2048_S1024 (.inl rfl) rfl)

/-- The exponentials of the entries less their row's maximum (the maxima as a column, copied along the rows). -/
def kExp (X : FVec Ideal S1024x2048 .f32) : FVec Ideal S1024x2048 .f32 :=
  exp (subf X (broadcastTo S1024x2048 (shapeCast S1024x1 (kMax X) shapeCasts_S1024_S1024x1) broadcasts_S1024x1_S1024x2048))

/-- The exponentials over their row sums (the sums as a column, copied along the rows). -/
def kSoft (X : FVec Ideal S1024x2048 .f32) : FVec Ideal S1024x2048 .f32 :=
  divf (kExp X) (broadcastTo S1024x2048 (shapeCast S1024x1
    (multiReduction .add [1] S1024 (kExp X) 0x00000000#32 reduces_S1024x2048_S1024 (.inl rfl) rfl)
    shapeCasts_S1024_S1024x1) broadcasts_S1024x1_S1024x2048)

/-- The masked scores: the query block times the transposed key block, scaled, the fill value where the mask is positive. -/
def kScores (P0 : Vec Ideal S1x1x1024x64 .f32) (P1 : Vec Ideal S1x1x2048x64 .f32) (P2 : Vec Ideal S1x1x1024x2048 .i32) :
    FVec Ideal S1024x2048 .f32 :=
  select (cmpi .sgt (shapeCast S1024x2048 P2 shapeCasts_S1x1x1024x2048_S1024x2048) (broadcast S1024x2048 0#32))
    (broadcast S1024x2048 (Scalar.ofBits .f32 0xCE6E6B28#32))
    (mulf (matmul dot_S1024x64_S64x2048_S1024x2048_1_0_0_1_n_n none
        (truncf .bf16 (shapeCast S1024x64 P0 shapeCasts_S1x1x1024x64_S1024x64) bitsLt_bf16_f32)
        (transpose S64x2048 [1, 0] (truncf .bf16 (shapeCast S2048x64 P1 shapeCasts_S1x1x2048x64_S2048x64) bitsLt_bf16_f32)
          transposes_S2048x64_p1_0_S64x2048)
        (constant S1024x2048 .f32 0x00000000#32))
      (broadcast S1024x2048 (Scalar.ofBits .f32 0x3E000000#32)))

/-- The body's weights are the row softmax of the masked scores. -/
theorem pay4_eq (P0 : Vec Ideal S1x1x1024x64 .f32) (P1 : Vec Ideal S1x1x2048x64 .f32) (P2 : Vec Ideal S1x1x1024x2048 .i32) :
    k0_pay4 (F := Ideal) P0 P1 P2 = kSoft (kScores P0 P1 P2) := rfl

/-! ## Pointwise operations read at an index -/

theorem exp_apply {s : Shape} {φ : FTy} (a : FVec Ideal s φ) (i : s.Idx) : exp a i = Ideal.exp (a i) := rfl

theorem cmpi_apply {s : Shape} {w : ℕ} (p : CmpIPredicate) (x y : IVec s w) (i : s.Idx) :
    cmpi p x y i = IntOp.cmpi p (x i) (y i) := rfl

theorem scalar_ofBits (φ : FTy) (b : BitVec φ.bits) : Scalar.ofBits (F := Ideal) φ b = Ideal.ofBits φ b := rfl

/-- A vector of 1024 entries made a column and copied along the rows reads, at (r, k), entry r. -/
theorem col_apply (v : FVec Ideal S1024 .f32) (r : Fin 1024) (k : Fin 2048) :
    broadcastTo S1024x2048 (shapeCast S1024x1 v shapeCasts_S1024_S1024x1) broadcasts_S1024x1_S1024x2048 (ix2 r k) = v (ix1 r) :=
  (Cert.LibColumns.broadcastTo_a1_ab_apply _ broadcasts_S1024x1_S1024x2048 r k).trans
    (Cert.LibColumns.shapeCast_a_a1_apply v shapeCasts_S1024_S1024x1 r 0)

/-- The reduction of max over the columns, at row r: the fold of max over the row from minus infinity. -/
theorem colMax_apply (X : FVec Ideal S1024x2048 .f32) (r : Fin 1024) :
    multiReduction .maximumf [1] S1024 X 0xFF800000#32 reduces_S1024x2048_S1024 (.inl rfl) rfl (ix1 r)
      = (Finset.univ : Finset (Fin 2048)).fold max negInf (fun k => X (ix2 r k)) := by
  refine (Ideal.multiReduction_maximumf_single X 0xFF800000#32 reduces_S1024x2048_S1024 (.inl rfl) rfl (ix1 r)).trans ?_
  refine Finset.fold_congr fun k _ => ?_
  exact congrArg X (funext fun c => Fin.ext (by match c with | ⟨0, _⟩ => rfl | ⟨1, _⟩ => rfl))

/-- The sum over the columns, at row r: the sum of the row. -/
theorem colSum_apply (Y : FVec Ideal S1024x2048 .f32) (r : Fin 1024) :
    multiReduction .add [1] S1024 Y 0x00000000#32 reduces_S1024x2048_S1024 (.inl rfl) rfl (ix1 r)
      = ∑ k : Fin 2048, Y (ix2 r k) := by
  refine (Ideal.multiReduction_add_single Y 0x00000000#32 reduces_S1024x2048_S1024 (.inl rfl) rfl (ix1 r)).trans ?_
  refine Finset.sum_congr rfl fun k _ => ?_
  exact congrArg Y (funext fun c => Fin.ext (by match c with | ⟨0, _⟩ => rfl | ⟨1, _⟩ => rfl))

theorem kMax_apply (X : FVec Ideal S1024x2048 .f32) (r : Fin 1024) :
    kMax X (ix1 r) = rowMax (fun k : Fin 2048 => X (ix2 r k)) := by
  unfold kMax rowMax
  rw [maximumf_apply, broadcast_apply, colMax_apply, scalar_ofBits]

theorem kExp_apply (X : FVec Ideal S1024x2048 .f32) (r : Fin 1024) (k : Fin 2048) :
    kExp X (ix2 r k) = rowExp (fun k' : Fin 2048 => X (ix2 r k')) k := by
  unfold kExp rowExp
  rw [exp_apply, subf_apply, col_apply, kMax_apply]

/-- THE SOFTMAX TAIL at (r, k): the specification's softmax of row r. -/
theorem kSoft_apply (X : FVec Ideal S1024x2048 .f32) (r : Fin 1024) (k : Fin 2048) :
    kSoft X (ix2 r k) = rowSoftmax (fun k' : Fin 2048 => X (ix2 r k')) k := by
  unfold kSoft rowSoftmax
  rw [divf_apply, col_apply, colSum_apply, kExp_apply]
  exact congrArg (Ideal.div _) (Finset.sum_congr rfl fun k' _ => kExp_apply X r k')

/-! ## The two matrix products -/

/-- The query block times the transposed key block, at (r, k): the inner product of query row r with key row k. -/
theorem qk_apply (P0 : Vec Ideal S1x1x1024x64 .f32) (P1 : Vec Ideal S1x1x2048x64 .f32) (r : Fin 1024) (k : Fin 2048) :
    (matmul dot_S1024x64_S64x2048_S1024x2048_1_0_0_1_n_n none
        (truncf .bf16 (shapeCast S1024x64 P0 shapeCasts_S1x1x1024x64_S1024x64 : FVec Ideal S1024x64 .f32) bitsLt_bf16_f32)
        (transpose S64x2048 [1, 0] (truncf .bf16 (shapeCast S2048x64 P1 shapeCasts_S1x1x2048x64_S2048x64 : FVec Ideal S2048x64 .f32) bitsLt_bf16_f32)
          transposes_S2048x64_p1_0_S64x2048)
        (constant S1024x2048 .f32 0x00000000#32) : FVec Ideal S1024x2048 .f32) (ix2 r k)
      = ∑ d : Fin 64, P0 (ix4 (0 : Fin 1) (0 : Fin 1) r d) * P1 (ix4 (0 : Fin 1) (0 : Fin 1) k d) := by
  refine (Cert.PlainDot.matmul_zero_apply dot_S1024x64_S64x2048_S1024x2048_1_0_0_1_n_n rfl rfl rfl rfl rfl rfl none _ _ r k).trans ?_
  refine Finset.sum_congr rfl fun d _ => ?_
  rw [truncf_apply, transpose_ix2_apply, truncf_apply, cast_11ab_ab, cast_11ab_ab]

/-- THE MASKED SCORES at (r, k). -/
theorem kScores_apply (P0 : Vec Ideal S1x1x1024x64 .f32) (P1 : Vec Ideal S1x1x2048x64 .f32) (P2 : Vec Ideal S1x1x1024x2048 .i32)
    (r : Fin 1024) (k : Fin 2048) :
    kScores P0 P1 P2 (ix2 r k)
      = maskedScore (fun d : Fin 64 => P0 (ix4 (0 : Fin 1) (0 : Fin 1) r d))
          (fun (k' : Fin 2048) (d : Fin 64) => P1 (ix4 (0 : Fin 1) (0 : Fin 1) k' d))
          (fun k' : Fin 2048 => P2 (ix4 (0 : Fin 1) (0 : Fin 1) r k')) k := by
  unfold kScores maskedScore
  simp only [select_apply, cmpi_apply, mulf_apply, broadcast_apply, scalar_ofBits]
  rw [qk_apply, cast_11ab_ab]

/-- THE WEIGHTS the body leaves, at (r, k): the attention weights of the block's query row r. -/
theorem pay4_apply (P0 : Vec Ideal S1x1x1024x64 .f32) (P1 : Vec Ideal S1x1x2048x64 .f32) (P2 : Vec Ideal S1x1x1024x2048 .i32)
    (r : Fin 1024) (k : Fin 2048) :
    k0_pay4 (F := Ideal) P0 P1 P2 (ix2 r k)
      = attnRow (fun d : Fin 64 => P0 (ix4 (0 : Fin 1) (0 : Fin 1) r d))
          (fun (k' : Fin 2048) (d : Fin 64) => P1 (ix4 (0 : Fin 1) (0 : Fin 1) k' d))
          (fun k' : Fin 2048 => P2 (ix4 (0 : Fin 1) (0 : Fin 1) r k')) k := by
  unfold attnRow
  rw [pay4_eq, kSoft_apply]
  exact congrArg (fun s : Fin 2048 → EReal => rowSoftmax s k) (funext fun k' => kScores_apply P0 P1 P2 r k')

/-- The body's output as the stored product of the weights with the value block. -/
theorem pay2_eq (P3 : Vec Ideal S1x1x2048x64 .f32) (W : FVec Ideal S1024x2048 .f32) :
    k0_pay2 (F := Ideal) (k0_pay3 P3) W
      = shapeCast S1x1x1024x64 (matmul dot_S1024x2048_S2048x64_S1024x64_1_0_0_1_n_n none (truncf .bf16 W bitsLt_bf16_f32)
          (truncf .bf16 (shapeCast S2048x64 P3 shapeCasts_S1x1x2048x64_S2048x64) bitsLt_bf16_f32) (constant S1024x64 .f32 0x00000000#32))
          shapeCasts_S1024x64_S1x1x1024x64 := rfl

/-- THE OUTPUT the body leaves, at (u, v, r, d): the sum over the key rows of weight (r, k) times value row k at d. -/
theorem pay2_apply (P3 : Vec Ideal S1x1x2048x64 .f32) (W : FVec Ideal S1024x2048 .f32) (u v : Fin 1) (r : Fin 1024) (d : Fin 64) :
    k0_pay2 (F := Ideal) (k0_pay3 P3) W (ix4 u v r d)
      = ∑ k : Fin 2048, W (ix2 r k) * P3 (ix4 (0 : Fin 1) (0 : Fin 1) k d) := by
  rw [pay2_eq, cast_ab_11ab]
  refine (Cert.PlainDot.matmul_zero_apply dot_S1024x2048_S2048x64_S1024x64_1_0_0_1_n_n rfl rfl rfl rfl rfl rfl none _ _ r d).trans ?_
  refine Finset.sum_congr rfl fun k _ => ?_
  rw [truncf_apply, truncf_apply, cast_11ab_ab]

/-- The weights as stored: the block [1, 1, 1024, 2048] reads the matrix at its last two coordinates. -/
theorem pay1_apply (W : FVec Ideal S1024x2048 .f32) (u v : Fin 1) (r : Fin 1024) (k : Fin 2048) :
    k0_pay1 (F := Ideal) W (ix4 u v r k) = W (ix2 r k) :=
  cast_ab_11ab W shapeCasts_S1024x2048_S1x1x1024x2048 u v r k

end Cert.KernelIdeal.Pay

end
-- ==== Proof.KernelBlocks.lean ====
/- The kernel pipeline's block geometry. The grid's points are triples (b, qi, h). At a point each window's block is a
   box of the window's array placed at block index × block size on every axis, so an element of a block is one element of
   the array; the two output windows' blocks, one per point, tile their arrays. -/
import proofs.«102311_j68607807586645_1_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## The index maps over the grid

Output window 5's block index at (b, qi, h) is (b, h, qi, 0). Every other window's block index is stated against it. -/

/-- The query window's block index is the output's: (b, h, qi, 0). -/
theorem idx_facts0 : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = win0_5.index t (3 : Fin 4) :=
  (by decide +kernel : ∀ t : Fin grid0.N, _)

/-- The key window's block index is (b, h, 0, 0): all rows of head (b, h). -/
theorem idx_facts1 : ∀ t : Fin cfg0.N,
    win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0 :=
  (by decide +kernel : ∀ t : Fin grid0.N, _)

/-- The value window's block index is (b, h, 0, 0): all rows of head (b, h). -/
theorem idx_facts2 : ∀ t : Fin cfg0.N,
    win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0 :=
  (by decide +kernel : ∀ t : Fin grid0.N, _)

/-- The mask window's block index is (b, 0, qi, 0): the mask has one head. -/
theorem idx_facts3 : ∀ t : Fin cfg0.N,
    win0_3.index t (0 : Fin 4) = win0_5.index t (0 : Fin 4) ∧ win0_3.index t (1 : Fin 4) = 0
    ∧ win0_3.index t (2 : Fin 4) = win0_5.index t (2 : Fin 4) ∧ win0_3.index t (3 : Fin 4) = 0 :=
  (by decide +kernel : ∀ t : Fin grid0.N, _)

/-- The two output windows have the same block index. -/
theorem idx_facts4 : ∀ t : Fin cfg0.N,
    win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = win0_5.index t (3 : Fin 4) :=
  (by decide +kernel : ∀ t : Fin grid0.N, _)

/-- The output's block index stays in its ranges: b ≤ 1, h ≤ 15, qi ≤ 1, and 0 on the last axis. -/
theorem idx_facts5 : ∀ t : Fin cfg0.N,
    win0_5.index t (0 : Fin 4) ≤ 1 ∧ win0_5.index t (1 : Fin 4) ≤ 15
    ∧ win0_5.index t (2 : Fin 4) ≤ 1 ∧ win0_5.index t (3 : Fin 4) = 0 :=
  (by decide +kernel : ∀ t : Fin grid0.N, _)

/-- All of the relations at one point. -/
theorem idx_facts (t : Fin cfg0.N) :
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = win0_5.index t (3 : Fin 4))
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = win0_5.index t (3 : Fin 4))
    ∧ (win0_5.index t (0 : Fin 4) ≤ 1 ∧ win0_5.index t (1 : Fin 4) ≤ 15
      ∧ win0_5.index t (2 : Fin 4) ≤ 1 ∧ win0_5.index t (3 : Fin 4) = 0) :=
  ⟨idx_facts0 t, idx_facts1 t, idx_facts2 t, idx_facts3 t, idx_facts4 t, idx_facts5 t⟩

/-- Every block index (b, h, qi, 0) of output window 5 is some point's. -/
theorem idx_onto5 : ∀ (q0 : Fin 2) (q1 : Fin 16) (q2 : Fin 2), ∃ t : Fin cfg0.N, win0_5.index t = ![q0.val, q1.val, q2.val, 0] :=
  (by decide +kernel : ∀ (q0 : Fin 2) (q1 : Fin 16) (q2 : Fin 2), ∃ t : Fin grid0.N, win0_5.index t = ![q0.val, q1.val, q2.val, 0])

/-- Every block index (b, h, qi, 0) of output window 4 is some point's. -/
theorem idx_onto4 : ∀ (q0 : Fin 2) (q1 : Fin 16) (q2 : Fin 2), ∃ t : Fin cfg0.N, win0_4.index t = ![q0.val, q1.val, q2.val, 0] :=
  (by decide +kernel : ∀ (q0 : Fin 2) (q1 : Fin 16) (q2 : Fin 2), ∃ t : Fin grid0.N, win0_4.index t = ![q0.val, q1.val, q2.val, 0])

/-! ## The input blocks as array elements

Element x of a block is the array's element whose coordinate on each axis is block index × block size + x's coordinate;
on an axis of block size 1, x's coordinate is 0. -/

/-- The query block at (b, qi, h): rows qi·1024 … qi·1024 + 1023 of head (b, h) of the query array. -/
theorem iblk0_apply (c : Dev nD) (t : Fin cfg0.N) (x : S1x1x1024x64.Idx) (k : S2x16x2048x64.Idx)
    (h0 : (k 0).val = win0_0.index t (0 : Fin 4)) (h1 : (k 1).val = win0_0.index t (1 : Fin 4))
    (h2 : (k 2).val = win0_0.index t (2 : Fin 4) * 1024 + (x 2).val) (h3 : (k 3).val = (x 3).val) :
    (iblk m c 0 t : Vec F S1x1x1024x64 .f32) x = (V m c main_arg0 : S2x16x2048x64.Idx → Elt F .f32) k := by
  have hx0 : (x 0).val < 1 := (x 0).isLt
  have hx1 : (x 1).val < 1 := (x 1).isLt
  have e3 : win0_0.index t (3 : Fin 4) = 0 := (idx_facts0 t).2.2.2.trans (idx_facts5 t).2.2.2
  unfold iblk
  rw [View.read_apply]
  show V m c main_arg0 _ = V m c main_arg0 _
  congr 1
  funext a
  apply Fin.ext
  match a with
  | ⟨0, _⟩ => show win0_0.index t (0 : Fin 4) * 1 + 1 * (x 0).val = (k 0).val; omega
  | ⟨1, _⟩ => show win0_0.index t (1 : Fin 4) * 1 + 1 * (x 1).val = (k 1).val; omega
  | ⟨2, _⟩ => show win0_0.index t (2 : Fin 4) * 1024 + 1 * (x 2).val = (k 2).val; omega
  | ⟨3, _⟩ => show win0_0.index t (3 : Fin 4) * 64 + 1 * (x 3).val = (k 3).val; omega

/-- The key block at (b, qi, h): all 2048 rows of head (b, h) of the key array. -/
theorem iblk1_apply (c : Dev nD) (t : Fin cfg0.N) (x : S1x1x2048x64.Idx) (k : S2x16x2048x64.Idx)
    (h0 : (k 0).val = win0_1.index t (0 : Fin 4)) (h1 : (k 1).val = win0_1.index t (1 : Fin 4))
    (h2 : (k 2).val = win0_1.index t (2 : Fin 4) * 2048 + (x 2).val) (h3 : (k 3).val = (x 3).val) :
    (iblk m c 1 t : Vec F S1x1x2048x64 .f32) x = (V m c main_arg1 : S2x16x2048x64.Idx → Elt F .f32) k := by
  have hx0 : (x 0).val < 1 := (x 0).isLt
  have hx1 : (x 1).val < 1 := (x 1).isLt
  have e3 : win0_1.index t (3 : Fin 4) = 0 := (idx_facts1 t).2.2.2
  unfold iblk
  rw [View.read_apply]
  show V m c main_arg1 _ = V m c main_arg1 _
  congr 1
  funext a
  apply Fin.ext
  match a with
  | ⟨0, _⟩ => show win0_1.index t (0 : Fin 4) * 1 + 1 * (x 0).val = (k 0).val; omega
  | ⟨1, _⟩ => show win0_1.index t (1 : Fin 4) * 1 + 1 * (x 1).val = (k 1).val; omega
  | ⟨2, _⟩ => show win0_1.index t (2 : Fin 4) * 2048 + 1 * (x 2).val = (k 2).val; omega
  | ⟨3, _⟩ => show win0_1.index t (3 : Fin 4) * 64 + 1 * (x 3).val = (k 3).val; omega

/-- The value block at (b, qi, h): all 2048 rows of head (b, h) of the value array. -/
theorem iblk2_apply (c : Dev nD) (t : Fin cfg0.N) (x : S1x1x2048x64.Idx) (k : S2x16x2048x64.Idx)
    (h0 : (k 0).val = win0_2.index t (0 : Fin 4)) (h1 : (k 1).val = win0_2.index t (1 : Fin 4))
    (h2 : (k 2).val = win0_2.index t (2 : Fin 4) * 2048 + (x 2).val) (h3 : (k 3).val = (x 3).val) :
    (iblk m c 2 t : Vec F S1x1x2048x64 .f32) x = (V m c main_arg2 : S2x16x2048x64.Idx → Elt F .f32) k := by
  have hx0 : (x 0).val < 1 := (x 0).isLt
  have hx1 : (x 1).val < 1 := (x 1).isLt
  have e3 : win0_2.index t (3 : Fin 4) = 0 := (idx_facts2 t).2.2.2
  unfold iblk
  rw [View.read_apply]
  show V m c main_arg2 _ = V m c main_arg2 _
  congr 1
  funext a
  apply Fin.ext
  match a with
  | ⟨0, _⟩ => show win0_2.index t (0 : Fin 4) * 1 + 1 * (x 0).val = (k 0).val; omega
  | ⟨1, _⟩ => show win0_2.index t (1 : Fin 4) * 1 + 1 * (x 1).val = (k 1).val; omega
  | ⟨2, _⟩ => show win0_2.index t (2 : Fin 4) * 2048 + 1 * (x 2).val = (k 2).val; omega
  | ⟨3, _⟩ => show win0_2.index t (3 : Fin 4) * 64 + 1 * (x 3).val = (k 3).val; omega

/-- The mask block at (b, qi, h): rows qi·1024 … qi·1024 + 1023, all 2048 columns, of batch b's one mask. -/
theorem iblk3_apply (c : Dev nD) (t : Fin cfg0.N) (x : S1x1x1024x2048.Idx) (k : S2x1x2048x2048.Idx)
    (h0 : (k 0).val = win0_3.index t (0 : Fin 4)) (h1 : (k 1).val = win0_3.index t (1 : Fin 4))
    (h2 : (k 2).val = win0_3.index t (2 : Fin 4) * 1024 + (x 2).val)
    (h3 : (k 3).val = win0_3.index t (3 : Fin 4) * 2048 + (x 3).val) :
    (iblk m c 3 t : Vec F S1x1x1024x2048 .i32) x = (V m c main_arg3 : S2x1x2048x2048.Idx → Elt F .i32) k := by
  have hx0 : (x 0).val < 1 := (x 0).isLt
  have hx1 : (x 1).val < 1 := (x 1).isLt
  unfold iblk
  rw [View.read_apply]
  show V m c main_arg3 _ = V m c main_arg3 _
  congr 1
  funext a
  apply Fin.ext
  match a with
  | ⟨0, _⟩ => show win0_3.index t (0 : Fin 4) * 1 + 1 * (x 0).val = (k 0).val; omega
  | ⟨1, _⟩ => show win0_3.index t (1 : Fin 4) * 1 + 1 * (x 1).val = (k 1).val; omega
  | ⟨2, _⟩ => show win0_3.index t (2 : Fin 4) * 1024 + 1 * (x 2).val = (k 2).val; omega
  | ⟨3, _⟩ => show win0_3.index t (3 : Fin 4) * 2048 + 1 * (x 3).val = (k 3).val; omega

/-! ## The output blocks in their arrays -/

/-- Element y of output window 4's block at a point sits in the array at block index × block size + y, axis by axis. -/
theorem emb4_val (t : Fin cfg0.N) (y : S1x1x1024x64.Idx) :
    ((((cfg0.win 4).blk t).view.emb y : S2x16x2048x64.Idx) 0).val = win0_4.index t (0 : Fin 4)
    ∧ ((((cfg0.win 4).blk t).view.emb y : S2x16x2048x64.Idx) 1).val = win0_4.index t (1 : Fin 4)
    ∧ ((((cfg0.win 4).blk t).view.emb y : S2x16x2048x64.Idx) 2).val = win0_4.index t (2 : Fin 4) * 1024 + (y 2).val
    ∧ ((((cfg0.win 4).blk t).view.emb y : S2x16x2048x64.Idx) 3).val = win0_4.index t (3 : Fin 4) * 64 + (y 3).val := by
  have hy0 : (y 0).val < 1 := (y 0).isLt
  have hy1 : (y 1).val < 1 := (y 1).isLt
  refine ⟨?_, ?_, ?_, ?_⟩
  · show win0_4.index t (0 : Fin 4) * 1 + 1 * (y 0).val = win0_4.index t (0 : Fin 4); omega
  · show win0_4.index t (1 : Fin 4) * 1 + 1 * (y 1).val = win0_4.index t (1 : Fin 4); omega
  · show win0_4.index t (2 : Fin 4) * 1024 + 1 * (y 2).val = win0_4.index t (2 : Fin 4) * 1024 + (y 2).val; omega
  · show win0_4.index t (3 : Fin 4) * 64 + 1 * (y 3).val = win0_4.index t (3 : Fin 4) * 64 + (y 3).val; omega

/-- Element y of output window 5's block at a point sits in the array at block index × block size + y, axis by axis. -/
theorem emb5_val (t : Fin cfg0.N) (y : S1x1x1024x2048.Idx) :
    ((((cfg0.win 5).blk t).view.emb y : S2x16x2048x2048.Idx) 0).val = win0_5.index t (0 : Fin 4)
    ∧ ((((cfg0.win 5).blk t).view.emb y : S2x16x2048x2048.Idx) 1).val = win0_5.index t (1 : Fin 4)
    ∧ ((((cfg0.win 5).blk t).view.emb y : S2x16x2048x2048.Idx) 2).val = win0_5.index t (2 : Fin 4) * 1024 + (y 2).val
    ∧ ((((cfg0.win 5).blk t).view.emb y : S2x16x2048x2048.Idx) 3).val = win0_5.index t (3 : Fin 4) * 2048 + (y 3).val := by
  have hy0 : (y 0).val < 1 := (y 0).isLt
  have hy1 : (y 1).val < 1 := (y 1).isLt
  refine ⟨?_, ?_, ?_, ?_⟩
  · show win0_5.index t (0 : Fin 4) * 1 + 1 * (y 0).val = win0_5.index t (0 : Fin 4); omega
  · show win0_5.index t (1 : Fin 4) * 1 + 1 * (y 1).val = win0_5.index t (1 : Fin 4); omega
  · show win0_5.index t (2 : Fin 4) * 1024 + 1 * (y 2).val = win0_5.index t (2 : Fin 4) * 1024 + (y 2).val; omega
  · show win0_5.index t (3 : Fin 4) * 2048 + 1 * (y 3).val = win0_5.index t (3 : Fin 4) * 2048 + (y 3).val; omega

/-! ## The output blocks cover the output arrays

Row r of head (b, h) lies in the block of index (b, h, r / 1024, 0), and that index is some point's. -/

/-- An index of output array 4 is in the block at a point iff each coordinate is in the block's range on its axis. -/
theorem mem_blk4 (t : Fin cfg0.N) (i : S2x16x2048x64.Idx) :
    i ∈ ((cfg0.win 4).blk t).view.set ↔ ∀ a : Fin 4, win0_4.index t a * S1x1x1024x64.size a ≤ (i a).val ∧ (i a).val < win0_4.index t a * S1x1x1024x64.size a + S1x1x1024x64.size a := by
  show i ∈ ((View.whole main_v0_0).slice (win0_4.rect t)).set ↔ _
  rw [View.set_slice_whole, Rect.mem_set_unit]
  exact Iff.rfl

/-- An index of output array 5 is in the block at a point iff each coordinate is in the block's range on its axis. -/
theorem mem_blk5 (t : Fin cfg0.N) (i : S2x16x2048x2048.Idx) :
    i ∈ ((cfg0.win 5).blk t).view.set ↔ ∀ a : Fin 4, win0_5.index t a * S1x1x1024x2048.size a ≤ (i a).val ∧ (i a).val < win0_5.index t a * S1x1x1024x2048.size a + S1x1x1024x2048.size a := by
  show i ∈ ((View.whole main_v0_1).slice (win0_5.rect t)).set ↔ _
  rw [View.set_slice_whole, Rect.mem_set_unit]
  exact Iff.rfl

/-- Every index of output array 4 is in the block of a point that writes back. -/
theorem cover4 : ∀ i : S2x16x2048x64.Idx, ∃ t : Fin cfg0.N, (cfg0.win 4).flush t = true ∧ i ∈ ((cfg0.win 4).blk t).view.set := by
  intro i
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto4 ⟨(i 0).val, hi0⟩ ⟨(i 1).val, hi1⟩ ⟨(i 2).val / 1024, by omega⟩
  have q0 : win0_4.index t (0 : Fin 4) = (i 0).val := congrFun ht 0
  have q1 : win0_4.index t (1 : Fin 4) = (i 1).val := congrFun ht 1
  have q2 : win0_4.index t (2 : Fin 4) = (i 2).val / 1024 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- Every index of output array 5 is in the block of a point that writes back. -/
theorem cover5 : ∀ i : S2x16x2048x2048.Idx, ∃ t : Fin cfg0.N, (cfg0.win 5).flush t = true ∧ i ∈ ((cfg0.win 5).blk t).view.set := by
  intro i
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto5 ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 2048 ≤ (i 3).val ∧ (i 3).val < win0_5.index t (3 : Fin 4) * 2048 + 2048; omega

end Cert.KernelIdeal.Blocks

end
-- ==== Proof.KernelValue.lean ====
/-
  The kernel's two result arrays as the specification's functions of the argument arrays.

  At the grid point (b, qi, h) the body sees query rows qi·1024 … qi·1024 + 1023 of head (b, h), all key and value rows
  of that head, and the same query rows of batch b's mask; what it writes back is the block (b, h, qi) of the attention
  matrix and of the output. Every weight depends on one query row, on all key rows of its head and on one mask row, so a
  block of the specification's matrix is computed from exactly the rows the point holds. The blocks of the 64 points tile
  both arrays, so after the run each array is the specification's function everywhere.
-/
import proofs.«102311_j68607807586645_1_alg».proof.Proof.Gen.KernelIdeal.Value
import proofs.«102311_j68607807586645_1_alg».proof.Proof.KernelPay
import proofs.«102311_j68607807586645_1_alg».proof.Proof.KernelBlocks

noncomputable section

open scoped BigOperators

namespace Cert.KernelIdeal.Hand

open Cert.KernelIdeal Cert.KernelIdeal.Gen Cert.KernelIdeal.Value Cert.KernelIdeal.Blocks Cert.KernelIdeal.Pay Cert.Attn
open Idealize.ShloMosaic Idealize.ShloMosaic.TcCoe Idealize.SL.Sem Idealize.ShloMosaic.ValueIdx
open Idealize.ShloMosaic.Pipeline (Dat)

/-! ## The weights of a row depend only on the row's query, the keys and the row's mask -/

theorem attnRow_congr {n D : ℕ} {q q' : Fin D → EReal} {kk kk' : Fin n → Fin D → EReal} {msk msk' : Fin n → BitVec 32}
    (hq : ∀ d, q d = q' d) (hk : ∀ k d, kk k d = kk' k d) (hm : ∀ k, msk k = msk' k) (k k' : Fin n) (hkk : k = k') :
    attnRow q kk msk k = attnRow q' kk' msk' k' := by
  obtain rfl : q = q' := funext hq
  obtain rfl : kk = kk' := funext fun k => funext (hk k)
  obtain rfl : msk = msk' := funext hm
  subst hkk
  rfl

/-! ## One block, over variables -/

/-- The weights block: if the point's query, key and mask blocks hold the rows of the arrays that array index i names,
    the stored weights at block index y are the specification's at i. -/
theorem weights_block (Q K : S2x16x2048x64.Idx → EReal) (M : S2x1x2048x2048.Idx → BitVec 32)
    (P0 : Vec Ideal S1x1x1024x64 .f32) (P1 : Vec Ideal S1x1x2048x64 .f32) (P2 : Vec Ideal S1x1x1024x2048 .i32)
    (y : S1x1x1024x2048.Idx) (i : S2x16x2048x2048.Idx)
    (h0 : ∀ d : Fin 64, P0 (ix4 (0 : Fin 1) (0 : Fin 1) (y 2) d) = Q (ix4 (i 0) (i 1) (i 2) d))
    (h1 : ∀ (k' : Fin 2048) (d : Fin 64), P1 (ix4 (0 : Fin 1) (0 : Fin 1) k' d) = K (ix4 (i 0) (i 1) k' d))
    (h2 : ∀ k' : Fin 2048, P2 (ix4 (0 : Fin 1) (0 : Fin 1) (y 2) k') = M (ix4 (i 0) (0 : Fin 1) (i 2) k'))
    (h3 : (y 3).val = (i 3).val) :
    k0_pay1 (F := Ideal) (k0_pay4 P0 P1 P2) y = probs Q K M i := by
  have hL : k0_pay1 (F := Ideal) (k0_pay4 P0 P1 P2) y = k0_pay4 (F := Ideal) P0 P1 P2 (ix2 (y 2) (y 3)) :=
    (congrArg (k0_pay1 (F := Ideal) (k0_pay4 P0 P1 P2)) (eq_ix4 y)).trans (pay1_apply _ (y 0) (y 1) (y 2) (y 3))
  have e3 : (y 3 : Fin 2048) = i 3 := Fin.ext h3
  rw [hL]
  refine (pay4_apply P0 P1 P2 (y 2) (y 3)).trans ?_
  unfold probs weights
  exact attnRow_congr h0 h1 h2 _ _ e3

/-- The output block: with the value block too, the stored output at block index y is the specification's at j. -/
theorem outs_block (Q K V : S2x16x2048x64.Idx → EReal) (M : S2x1x2048x2048.Idx → BitVec 32)
    (P0 : Vec Ideal S1x1x1024x64 .f32) (P1 P3 : Vec Ideal S1x1x2048x64 .f32) (P2 : Vec Ideal S1x1x1024x2048 .i32)
    (y : S1x1x1024x64.Idx) (j : S2x16x2048x64.Idx)
    (h0 : ∀ d : Fin 64, P0 (ix4 (0 : Fin 1) (0 : Fin 1) (y 2) d) = Q (ix4 (j 0) (j 1) (j 2) d))
    (h1 : ∀ (k' : Fin 2048) (d : Fin 64), P1 (ix4 (0 : Fin 1) (0 : Fin 1) k' d) = K (ix4 (j 0) (j 1) k' d))
    (h2 : ∀ k' : Fin 2048, P2 (ix4 (0 : Fin 1) (0 : Fin 1) (y 2) k') = M (ix4 (j 0) (0 : Fin 1) (j 2) k'))
    (h3 : ∀ k' : Fin 2048, P3 (ix4 (0 : Fin 1) (0 : Fin 1) k' (y 3)) = V (ix4 (j 0) (j 1) k' (j 3))) :
    k0_pay2 (F := Ideal) (k0_pay3 P3) (k0_pay4 P0 P1 P2) y = outs Q K V M j := by
  have hL : k0_pay2 (F := Ideal) (k0_pay3 P3) (k0_pay4 P0 P1 P2) y
      = ∑ k : Fin 2048, k0_pay4 (F := Ideal) P0 P1 P2 (ix2 (y 2) k) * P3 (ix4 (0 : Fin 1) (0 : Fin 1) k (y 3)) :=
    (congrArg (k0_pay2 (F := Ideal) (k0_pay3 P3) (k0_pay4 P0 P1 P2)) (eq_ix4 y)).trans (pay2_apply P3 _ (y 0) (y 1) (y 2) (y 3))
  rw [hL]
  unfold outs outRow weights
  refine Finset.sum_congr rfl fun k' _ => ?_
  exact congrArg₂ (· * ·) ((pay4_apply P0 P1 P2 (y 2) k').trans (attnRow_congr h0 h1 h2 _ _ rfl)) (h3 k')

/-! ## Every point's blocks -/

variable (m : (ℓ : Loc nD τ sig) → Buf (Elt Ideal) ℓ) (ρ : Dev nD → PrngReg)

theorem hz : (![0, 0, 0, 0] : Fin 4 → Nat) = fun _ => 0 := funext fun a => by fin_cases a <;> rfl

/-- The argument arrays as the region finds them. -/
abbrev Qa (c : Dev nD) : S2x16x2048x64.Idx → EReal := V m c main_arg0
abbrev Ka (c : Dev nD) : S2x16x2048x64.Idx → EReal := V m c main_arg1
abbrev Va (c : Dev nD) : S2x16x2048x64.Idx → EReal := V m c main_arg2
abbrev Ma (c : Dev nD) : S2x1x2048x2048.Idx → BitVec 32 := V m c main_arg3

/-- The query block at a point holds the query rows that an element of the point's weights block names. -/
theorem q_row5 (c : Dev nD) (t : Fin cfg0.N) (y : S1x1x1024x2048.Idx) (i : S2x16x2048x2048.Idx)
    (e0 : (i 0).val = win0_5.index t (0 : Fin 4)) (e1 : (i 1).val = win0_5.index t (1 : Fin 4))
    (e2 : (i 2).val = win0_5.index t (2 : Fin 4) * 1024 + (y 2).val) (d : Fin 64) :
    (iblk m c 0 t : Vec Ideal S1x1x1024x64 .f32) (ix4 (0 : Fin 1) (0 : Fin 1) (y 2) d) = Qa m c (ix4 (i 0) (i 1) (i 2) d) := by
  obtain ⟨f0, f1, f2, f3⟩ := idx_facts0 t
  refine iblk0_apply m c t _ _ ?_ ?_ ?_ rfl
  · show (i 0).val = _; omega
  · show (i 1).val = _; omega
  · show (i 2).val = win0_0.index t (2 : Fin 4) * 1024 + (y 2).val; omega

/-- The key block at a point holds all key rows of the head that an output element names. -/
theorem k_row (c : Dev nD) (t : Fin cfg0.N) (b : Fin 2) (h : Fin 16)
    (e0 : b.val = win0_5.index t (0 : Fin 4)) (e1 : h.val = win0_5.index t (1 : Fin 4)) (k' : Fin 2048) (d : Fin 64) :
    (iblk m c 1 t : Vec Ideal S1x1x2048x64 .f32) (ix4 (0 : Fin 1) (0 : Fin 1) k' d) = Ka m c (ix4 b h k' d) := by
  obtain ⟨g0, g1, g2, g3⟩ := idx_facts1 t
  refine iblk1_apply m c t _ _ ?_ ?_ ?_ rfl
  · show b.val = _; omega
  · show h.val = _; omega
  · show k'.val = win0_1.index t (2 : Fin 4) * 2048 + k'.val; omega

/-- The value block likewise. -/
theorem v_row (c : Dev nD) (t : Fin cfg0.N) (b : Fin 2) (h : Fin 16)
    (e0 : b.val = win0_5.index t (0 : Fin 4)) (e1 : h.val = win0_5.index t (1 : Fin 4)) (k' : Fin 2048) (d : Fin 64) :
    (iblk m c 2 t : Vec Ideal S1x1x2048x64 .f32) (ix4 (0 : Fin 1) (0 : Fin 1) k' d) = Va m c (ix4 b h k' d) := by
  obtain ⟨g0, g1, g2, g3⟩ := idx_facts2 t
  refine iblk2_apply m c t _ _ ?_ ?_ ?_ rfl
  · show b.val = _; omega
  · show h.val = _; omega
  · show k'.val = win0_2.index t (2 : Fin 4) * 2048 + k'.val; omega

/-- The mask block at a point holds the mask rows of the point's query rows, at the mask's one head. -/
theorem m_row (c : Dev nD) (t : Fin cfg0.N) (b : Fin 2) (R : Fin 2048) (r : Fin 1024)
    (e0 : b.val = win0_5.index t (0 : Fin 4)) (e2 : R.val = win0_5.index t (2 : Fin 4) * 1024 + r.val) (k' : Fin 2048) :
    (iblk m c 3 t : Vec Ideal S1x1x1024x2048 .i32) (ix4 (0 : Fin 1) (0 : Fin 1) r k') = Ma m c (ix4 b (0 : Fin 1) R k') := by
  obtain ⟨k0, k1, k2, k3⟩ := idx_facts3 t
  refine iblk3_apply m c t _ _ ?_ ?_ ?_ ?_
  · show b.val = _; omega
  · show 0 = win0_3.index t (1 : Fin 4); omega
  · show R.val = win0_3.index t (2 : Fin 4) * 1024 + r.val; omega
  · show k'.val = win0_3.index t (3 : Fin 4) * 2048 + k'.val; omega

/-- WHAT POINT t WRITES BACK to the attention matrix is block t of the specification's matrix. -/
theorem flushed5_eq (c : Dev nD) (t : Fin cfg0.N) :
    (dats m 0 c).flushed 5 t = ((cfg0.win 5).blk t).view.read (Elt Ideal) (probs (Qa m c) (Ka m c) (Ma m c)) := by
  have key : ∀ y : S1x1x1024x2048.Idx,
      k0_pay1 (F := Ideal) (k0_pay4 (iblk m c 0 t) (iblk m c 1 t) (iblk m c 3 t)) y
        = probs (Qa m c) (Ka m c) (Ma m c) (((cfg0.win 5).blk t).view.emb y) := fun y => by
    obtain ⟨e0, e1, e2, e3⟩ := emb5_val t y
    obtain ⟨b0, b1, b2, b3⟩ := idx_facts5 t
    refine weights_block _ _ _ _ _ _ y _ (fun d => ?_) (fun k' d => ?_) (fun k' => ?_) (by omega)
    · exact q_row5 m c t y _ e0 e1 e2 d
    · exact k_row m c t _ _ e0 e1 k' d
    · exact m_row m c t _ _ (y 2) e0 e2 k'
  show (cfg0.win 5).cut (grid0.coords t) ((dats m 0 c).after 5 t) = _
  rw [after0_5]
  unfold out0_5
  rw [View.canon_unit_zero hz]
  simp only [View.ld_unit_zero (S := S1x1x1024x64) hz, View.ld_unit_zero (S := S1x1x2048x64) hz,
    View.ld_unit_zero (S := S1x1x1024x2048) hz]
  funext y
  exact key y

/-- WHAT POINT t WRITES BACK to the output is block t of the specification's output. -/
theorem flushed4_eq (c : Dev nD) (t : Fin cfg0.N) :
    (dats m 0 c).flushed 4 t = ((cfg0.win 4).blk t).view.read (Elt Ideal) (outs (Qa m c) (Ka m c) (Va m c) (Ma m c)) := by
  have key : ∀ y : S1x1x1024x64.Idx,
      k0_pay2 (F := Ideal) (k0_pay3 (iblk m c 2 t)) (k0_pay4 (iblk m c 0 t) (iblk m c 1 t) (iblk m c 3 t)) y
        = outs (Qa m c) (Ka m c) (Va m c) (Ma m c) (((cfg0.win 4).blk t).view.emb y) := fun y => by
    obtain ⟨e0, e1, e2, e3⟩ := emb4_val t y
    obtain ⟨a0, a1, a2, a3⟩ := idx_facts4 t
    obtain ⟨f0, f1, f2, f3⟩ := idx_facts0 t
    obtain ⟨b0, b1, b2, b3⟩ := idx_facts5 t
    refine outs_block _ _ _ _ _ _ _ _ y _ (fun d => ?_) (fun k' d => ?_) (fun k' => ?_) (fun k' => ?_)
    · refine iblk0_apply m c t _ _ ?_ ?_ ?_ rfl
      · show ((((cfg0.win 4).blk t).view.emb y : S2x16x2048x64.Idx) 0).val = _; omega
      · show ((((cfg0.win 4).blk t).view.emb y : S2x16x2048x64.Idx) 1).val = _; omega
      · show ((((cfg0.win 4).blk t).view.emb y : S2x16x2048x64.Idx) 2).val = win0_0.index t (2 : Fin 4) * 1024 + (y 2).val; omega
    · exact k_row m c t _ _ (by omega) (by omega) k' d
    · exact m_row m c t _ _ (y 2) (by omega) (by omega) k'
    · have hv := v_row m c t _ _ (e0.trans a0) (e1.trans a1) k' (y 3)
      refine hv.trans (congrArg (Va m c) (funext fun a => Fin.ext ?_))
      match a with
      | ⟨0, _⟩ => rfl
      | ⟨1, _⟩ => rfl
      | ⟨2, _⟩ => rfl
      | ⟨3, _⟩ => show (y 3).val = ((((cfg0.win 4).blk t).view.emb y : S2x16x2048x64.Idx) 3).val; omega
  show (cfg0.win 4).cut (grid0.coords t) ((dats m 0 c).after 4 t) = _
  rw [after0_4]
  unfold out0_4
  rw [View.canon_unit_zero hz]
  simp only [View.ld_unit_zero (S := S1x1x1024x64) hz, View.ld_unit_zero (S := S1x1x2048x64) hz,
    View.ld_unit_zero (S := S1x1x1024x2048) hz]
  funext y
  exact key y

/-- The attention matrix after the run. -/
theorem final5 (c : Dev nD) : (dats m 0 c).arrAt 5 cfg0.N = probs (Qa m c) (Ka m c) (Ma m c) :=
  (dats m 0 c).arrAt_eq_of_cover 5 _ (fun t _ => flushed5_eq m c t) cover5

/-- The output after the run. -/
theorem final4 (c : Dev nD) : (dats m 0 c).arrAt 4 cfg0.N = outs (Qa m c) (Ka m c) (Va m c) (Ma m c) :=
  (dats m 0 c).arrAt_eq_of_cover 4 _ (fun t _ => flushed4_eq m c t) cover4

/-- THE RUN, READ: every weakly fair execution ends with the output and the attention matrix at the specification's
    functions of the arguments, the arguments unchanged. -/
theorem run : θ_run defs (onTc (τ := τ) (main (F := Ideal))) ⟨m, fun _ => 0, ρ⟩ fun r => ∀ c : Dev nD,
      r.2.mem ((c : Thread nD τ).loc main_v0_0) = outs (Qa m c) (Ka m c) (Va m c) (Ma m c)
      ∧ r.2.mem ((c : Thread nD τ).loc main_v0_1) = probs (Qa m c) (Ka m c) (Ma m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelIdeal.Hand

end
-- ==== Proof.lean ====
/-
  Masked scaled dot-product attention: a kernel that computes one block of 1024 query rows of one head at each of its
  64 grid points, against the reference that computes everything with two batched products and a softmax.

  On the extended reals both compute, for every batch, head and query row, the scaled inner products of the row with
  all 2048 key rows, the fill value in place of a masked score, the softmax of that row taken with the row's maximum
  subtracted, and the weighted sum of the value rows. The kernel rounds the operands of its two matrix products to
  sixteen bits, which is the identity on extended reals, and its tiling by query rows does not enter any sum: every
  weight depends on one query row only. So the two programs' results are one function of the arguments, index by index,
  with no law of arithmetic needed between them; the precondition that the inputs are finite is not used.

  The three frames are the generated ones (the reference's is its run with the results dropped), and the idealization
  rewrote nothing, so there is nothing to preserve.
-/
import proofs.«102311_j68607807586645_1_alg».proof.Defs
import proofs.«102311_j68607807586645_1_alg».proof.Proof.Gen.Kernel
import proofs.«102311_j68607807586645_1_alg».proof.Proof.Gen.Kernel.Skeleton
import proofs.«102311_j68607807586645_1_alg».proof.Proof.Gen.Kernel.Launch
import proofs.«102311_j68607807586645_1_alg».proof.Proof.Gen.Kernel.Points
import proofs.«102311_j68607807586645_1_alg».proof.Proof.Gen.Kernel.Frame
import proofs.«102311_j68607807586645_1_alg».proof.Proof.Gen.KernelIdeal
import proofs.«102311_j68607807586645_1_alg».proof.Proof.Gen.KernelIdeal.Skeleton
import proofs.«102311_j68607807586645_1_alg».proof.Proof.Gen.KernelIdeal.Launch
import proofs.«102311_j68607807586645_1_alg».proof.Proof.Gen.KernelIdeal.Points
import proofs.«102311_j68607807586645_1_alg».proof.Proof.Gen.KernelIdeal.Frame
import proofs.«102311_j68607807586645_1_alg».proof.Proof.Gen.ReferenceIdeal
import proofs.«102311_j68607807586645_1_alg».proof.Proof.Gen.Pre_finite_inputs
import proofs.«102311_j68607807586645_1_alg».proof.Proof.Gen.KernelIdeal.Value
import proofs.«102311_j68607807586645_1_alg».proof.Proof.Gen.ReferenceIdeal.Run
import proofs.«102311_j68607807586645_1_alg».proof.Proof.Gen.ReferenceIdeal.Read
import proofs.«102311_j68607807586645_1_alg».proof.Proof.AttnSpec
import proofs.«102311_j68607807586645_1_alg».proof.Proof.RefAttn
import proofs.«102311_j68607807586645_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the output and the attention matrix at the specification's functions of the arguments:
    the kernel block by block, the reference operation by operation; the arguments agree. -/
theorem algebraic : Cert.algebraic_KernelIdeal_ReferenceIdeal := by
  intro m ρ m' ρ' _ hagree
  refine ⟨fun c => Cert.Attn.outs (Cert.KernelIdeal.Hand.Qa m c) (Cert.KernelIdeal.Hand.Ka m c) (Cert.KernelIdeal.Hand.Va m c)
      (Cert.KernelIdeal.Hand.Ma m c),
    fun c => Cert.Attn.probs (Cert.KernelIdeal.Hand.Qa m c) (Cert.KernelIdeal.Hand.Ka m c) (Cert.KernelIdeal.Hand.Ma m c),
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v17_eq _ _ _ _).trans ?_
    refine (Cert.ReferenceIdeal.RefValue.outs_eq _ _ _ _).trans ?_
    rw [(hagree c).1, (hagree c).2.1, (hagree c).2.2.1, (hagree c).2.2.2]
  · refine (Cert.ReferenceIdeal.Read.val_main_v16_eq _ _ _).trans ?_
    refine (Cert.ReferenceIdeal.RefValue.probs_eq _ _ _).trans ?_
    rw [(hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
